-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S32000000 : Shape := ⟨1, ![32000000]⟩
abbrev S1x2 : Shape := ⟨2, ![1, 2]⟩
abbrev S1 : Shape := ⟨1, ![1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1000000x1 .f32) (main_arg1 : IVec S32000000 32) (main_arg2 : IVec S32000000 32) (main_arg3 : FVec F S1x2 .f32) (main_arg4 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x2 .f32 := Host.absf main_arg3
  let main_cst_0 : FVec F S_ .f32 := constant S_ .f32 0x7F800000#32
  let main_v5 : FVec F S1x2 .f32 := broadcastInDim S1x2 ![] bcast_S_S1x2 main_cst_0
  let main_v6 : IVec S1x2 1 := cmpf .olt main_v4 main_v5
  let main_c_1 : IVec S_ 1 := constantI S_ 1 1#1
  let main_v7 : IVec S_ 1 := (fun x v => Host.reduce IntOp.andi x v reducesTo_S1x2_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1000000x1 : Shape := ⟨2, ![1000000, 1]⟩
abbrev S32000000 : Shape := ⟨1, ![32000000]⟩
abbrev S1x2 : Shape := ⟨2, ![1, 2]⟩
abbrev S1 : Shape := ⟨1, ![1]⟩
abbrev S_ : Shape := ⟨0, ![]⟩
abbrev S32000000x1 : Shape := ⟨2, ![32000000, 1]⟩
abbrev S32000000x2 : Shape := ⟨2, ![32000000, 2]⟩
abbrev S1000000 : Shape := ⟨1, ![1000000]⟩
abbrev S1048576 : Shape := ⟨1, ![1048576]⟩
abbrev S8192x128 : Shape := ⟨2, ![8192, 128]⟩
abbrev S1024x128 : Shape := ⟨2, ![1024, 128]⟩
abbrev S1x1 : Shape := ⟨2, ![1, 1]⟩

abbrev nBuf : Space → Nat
  | .hbm => 36
  | .vmem => 8
  | .smem => 0
  | _ => 0

abbrev bufTy : (tb : Table) → Fin (tcTables nBuf tb) → BufTy
  | .hbm, ⟨0, _⟩ => ⟨S1000000x1, .f32⟩
  | .hbm, ⟨1, _⟩ => ⟨S32000000, .i32⟩
  | .hbm, ⟨2, _⟩ => ⟨S32000000, .i32⟩
  | .hbm, ⟨3, _⟩ => ⟨S1x2, .f32⟩
  | .hbm, ⟨4, _⟩ => ⟨S1, .f32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S_, .i32⟩
  | .hbm, ⟨13, _⟩ => ⟨S32000000, .i32⟩
  | .hbm, ⟨14, _⟩ => ⟨S32000000, .i32⟩
  | .hbm, ⟨15, _⟩ => ⟨S32000000x1, .i32⟩
  | .hbm, ⟨16, _⟩ => ⟨S32000000x1, .i32⟩
  | .hbm, ⟨17, _⟩ => ⟨S32000000x2, .i32⟩
  | .hbm, ⟨18, _⟩ => ⟨S32000000, .f32⟩
  | .hbm, ⟨19, _⟩ => ⟨S_, .f32⟩
  | .hbm, ⟨20, _⟩ => ⟨S1000000, .f32⟩
  | .hbm, ⟨21, _⟩ => ⟨S32000000x1, .i32⟩
  | .hbm, ⟨22, _⟩ => ⟨S1000000, .f32⟩
  | .hbm, ⟨23, _⟩ => ⟨S1000000, .f32⟩
  | .hbm, ⟨24, _⟩ => ⟨S_, .i32⟩
  | .hbm, ⟨25, _⟩ => ⟨S_, .f32⟩
  | .hbm, ⟨26, _⟩ => ⟨S1048576, .f32⟩
  | .hbm, ⟨27, _⟩ => ⟨S_, .i32⟩
  | .hbm, ⟨28, _⟩ => ⟨S_, .f32⟩
  | .hbm, ⟨29, _⟩ => ⟨S1048576, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S1048576, .f32⟩
  | .hbm, ⟨34, _⟩ => ⟨S1000000, .f32⟩
  | .hbm, ⟨35, _⟩ => ⟨S1000000x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x2, .f32⟩
  | .local _ .vmem, ⟨5, _⟩ => ⟨S1, .f32⟩
  | .local _ .vmem, ⟨6, _⟩ => ⟨S1024x128, .f32⟩
  | .local _ .vmem, ⟨7, _⟩ => ⟨S1024x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call0_v0 : Ref sig .tc := ⟨.hbm, 25, rfl⟩
abbrev main_v15 : Ref sig .tc := ⟨.hbm, 26, rfl⟩
abbrev main_c_3 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  concatenates_S32000000x1_S32000000x1_S32000000x2_d1 : Shape.Concatenates [S32000000x1, S32000000x1] S32000000x2 1
  bcast_S_S1000000 : S_.BroadcastsInDim S1000000 (![] : Fin 0 → Fin S1000000.rank)
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S8192x128 : S1048576.ShapeCasts S8192x128
  inb_S1x2_S1x2_0_0 : ∀ a, (![0, 0] : Fin 2 → Nat) a + S1x2.size a ≤ S1x2.size a
  h_S1x2 : 0 < S1x2.numel
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  inb_S1_S1_0 : ∀ a, (![0] : Fin 1 → Nat) a + S1.size a ≤ S1.size a
  h_S1 : 0 < S1.numel
  inpos_S1_p0 : ∀ a, (![0] : Fin 1 → Nat) a < S1.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  slices_S1048576_S1000000_0 : S1048576.Slices ![0] S1000000
  bcast_S1000000_S1000000x1_0 : S1000000.BroadcastsInDim S1000000x1 (![0] : Fin 1 → Fin S1000000x1.rank)
  gather_S1000000x1_S32000000x2_S32000000_n_01_n_n_01_1_11_wf : GatherDims.WF S1000000x1 S32000000x2 S32000000 [] [0, 1] [] [0, 1] [] 1 ![1, 1]
  scatter_S1000000_S32000000x1_S32000000_n_0_0_1_wf : ScatterDims.WF S1000000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)

variable [Facts₀]

def gather_S1000000x1_S32000000x2_S32000000_n_01_n_n_01_1_11 : GatherDims S1000000x1 S32000000x2 S32000000 where
  offsetDims := []
  collapsedSliceDims := [0, 1]
  operandBatchingDims := []
  startIndicesBatchingDims := []
  startIndexMap := [0, 1]
  indexVectorDim := 1
  sliceSizes := ![1, 1]
  wf := gather_S1000000x1_S32000000x2_S32000000_n_01_n_n_01_1_11_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

abbrev win0_0 : Pipeline.Window sig grid0 :=
  Pipeline.Window.ofSpec (Memref.whole main_v17) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S32000000 : Shape := ⟨1, ![32000000]⟩
abbrev S1x2 : Shape := ⟨2, ![1, 2]⟩
abbrev S1 : Shape := ⟨1, ![1]⟩
abbrev S_ : Shape := ⟨0, ![]⟩
abbrev S32000000x1 : Shape := ⟨2, ![32000000, 1]⟩
abbrev S32000000x2 : Shape := ⟨2, ![32000000, 2]⟩
abbrev S1000000 : Shape := ⟨1, ![1000000]⟩
abbrev S1000000x2 : Shape := ⟨2, ![1000000, 2]⟩
abbrev S2x1 : Shape := ⟨2, ![2, 1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S32000000, .i32⟩
  | .hbm, ⟨2, _⟩ => ⟨S32000000, .i32⟩
  | .hbm, ⟨3, _⟩ => ⟨S1x2, .f32⟩
  | .hbm, ⟨4, _⟩ => ⟨S1, .f32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S_, .i32⟩
  | .hbm, ⟨13, _⟩ => ⟨S32000000, .i32⟩
  | .hbm, ⟨14, _⟩ => ⟨S32000000, .i32⟩
  | .hbm, ⟨15, _⟩ => ⟨S32000000x1, .i32⟩
  | .hbm, ⟨16, _⟩ => ⟨S32000000x1, .i32⟩
  | .hbm, ⟨17, _⟩ => ⟨S32000000x2, .i32⟩
  | .hbm, ⟨18, _⟩ => ⟨S32000000, .f32⟩
  | .hbm, ⟨19, _⟩ => ⟨S_, .f32⟩
  | .hbm, ⟨20, _⟩ => ⟨S1000000, .f32⟩
  | .hbm, ⟨21, _⟩ => ⟨S32000000x1, .i32⟩
  | .hbm, ⟨22, _⟩ => ⟨S1000000, .f32⟩
  | .hbm, ⟨23, _⟩ => ⟨S1000000x1, .f32⟩
  | .hbm, ⟨24, _⟩ => ⟨S1000000x2, .f32⟩
  | .hbm, ⟨25, _⟩ => ⟨S2x1, .f32⟩
  | .hbm, ⟨26, _⟩ => ⟨S1000000x1, .f32⟩
  | .hbm, ⟨27, _⟩ => ⟨S1x1, .f32⟩
  | .hbm, ⟨28, _⟩ => ⟨S1000000x1, .f32⟩
  | .hbm, ⟨29, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  concatenates_S32000000x1_S32000000x1_S32000000x2_d1 : Shape.Concatenates [S32000000x1, S32000000x1] S32000000x2 1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  transposes_S1x2_S2x1_1_0 : S1x2.Transposes [1, 0] S2x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S1000000x1_S32000000x2_S32000000_n_01_n_n_01_1_11_wf : GatherDims.WF S1000000x1 S32000000x2 S32000000 [] [0, 1] [] [0, 1] [] 1 ![1, 1]
  scatter_S1000000_S32000000x1_S32000000_n_0_0_1_wf : ScatterDims.WF S1000000 S32000000x1 S32000000 [] [0] [0] 1
  dot_S1000000x2_S2x1_S1000000x1_1_0_0_1_n_n_wf : DotDims.WF S1000000x2 S2x1 S1000000x1 [1] [0] [0] [1] [] []

variable [Facts₀]

def gather_S1000000x1_S32000000x2_S32000000_n_01_n_n_01_1_11 : GatherDims S1000000x1 S32000000x2 S32000000 where
  offsetDims := []
  collapsedSliceDims := [0, 1]
  operandBatchingDims := []
  startIndicesBatchingDims := []
  startIndexMap := [0, 1]
  indexVectorDim := 1
  sliceSizes := ![1, 1]
  wf := gather_S1000000x1_S32000000x2_S32000000_n_01_n_n_01_1_11_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def dot_S1000000x2_S2x1_S1000000x1_1_0_0_1_n_n : DotDims S1000000x2 S2x1 S1000000x1 where
  lhsContracting := [1]
  rhsContracting := [0]
  lhsNonContracting := [0]
  rhsNonContracting := [1]
  lhsBatch := []
  rhsBatch := []
  wf := dot_S1000000x2_S2x1_S1000000x1_1_0_0_1_n_n_wf

class Facts : Prop extends Facts₀ where

variable [Facts]
-- ==== Proof.Combine.lean ====
/-
  The value both programs compute, as one function of the arrays it depends on.

  Node `n` of the graph carries a state `x n` and the sum `s n` of its in-neighbours' states; a linear layer with the
  1 x 2 weight matrix `W` and the bias `b` sends the pair to
      x n * W 0 0  +  s n * W 0 1  +  b 0 .
  The neighbour sums enter only as an array: where they come from (a gather along the edges' sources followed by a
  scatter-add at their targets) is the same computation in both programs and is never opened.
-/
import Idealize.ShloMosaic.PureOps.Ideal
import Idealize.ShloMosaic.Lib.ValueIdx

noncomputable section

namespace Cert.Combine

open Idealize.ShloMosaic Idealize.ShloMosaic.ValueIdx

/-- The linear layer applied to every node: entry `(n, 0)` of the result is `x n * W 0 0 + s n * W 0 1 + b 0`
    on the extended reals, with `x` the column of states and `s` the vector of neighbour sums. -/
def combine (x : FVec Ideal ⟨2, ![1000000, 1]⟩ .f32) (s : FVec Ideal ⟨1, ![1000000]⟩ .f32)
    (W : FVec Ideal ⟨2, ![1, 2]⟩ .f32) (b : FVec Ideal ⟨1, ![1]⟩ .f32) : FVec Ideal ⟨2, ![1000000, 1]⟩ .f32 :=
  fun i => x (ix2 (i 0) (0 : Fin 1)) * W (ix2 (0 : Fin 1) (0 : Fin 2)) + s (ix1 (i 0)) * W (ix2 (0 : Fin 1) (1 : Fin 2))
    + b (ix1 (0 : Fin 1))

/-- The same, at a node given by its number. -/
theorem combine_apply (x : FVec Ideal ⟨2, ![1000000, 1]⟩ .f32) (s : FVec Ideal ⟨1, ![1000000]⟩ .f32)
    (W : FVec Ideal ⟨2, ![1, 2]⟩ .f32) (b : FVec Ideal ⟨1, ![1]⟩ .f32) (n : Fin 1000000) (u : Fin 1) :
    combine x s W b (ix2 n u)
      = x (ix2 n (0 : Fin 1)) * W (ix2 (0 : Fin 1) (0 : Fin 2)) + s (ix1 n) * W (ix2 (0 : Fin 1) (1 : Fin 2))
        + b (ix1 (0 : Fin 1)) := rfl

end Cert.Combine

end
-- ==== Proof.ReferenceSide.lean ====
/-
  The reference at an index.

  The reference lays the states and the neighbour sums side by side as the two columns of a 1000000 x 2 matrix,
  multiplies it by the transposed weight matrix (2 x 1) and adds the bias to every row.  Entry `(n, 0)` of the
  product is the sum over the two columns `k` of (column `k` at row `n`) * `W 0 k`, that is
  `x n * W 0 0 + s n * W 0 1`: the linear layer of `Cert.Combine.combine`, with no rearrangement at all.
-/
import proofs.«128164_j10204842295505_1_alg».proof.Proof.Gen.ReferenceIdeal.Run
import proofs.«128164_j10204842295505_1_alg».proof.Proof.Gen.ReferenceIdeal.Read
import proofs.«128164_j10204842295505_1_alg».proof.Proof.Combine
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx

/-! ## Two columns laid side by side -/

/-- Column 0 of two columns laid side by side is the first. -/
theorem columns_left {α : Type} (a b : S1000000x1.Idx → α) (h : Shape.Concatenates [S1000000x1, S1000000x1] S1000000x2 1)
    (n : Fin 1000000) :
    concatenate S1000000x2 1 [⟨S1000000x1, a⟩, ⟨S1000000x1, b⟩] h (ix2 n (0 : Fin 2)) = a (ix2 n (0 : Fin 1)) :=
  concatenate_pair_apply_left (1 : Fin S1000000x2.rank) a b h (ix2 n (0 : Fin 2)) rfl (ix2 n (0 : Fin 1)) (fun d => by
    match d with
    | ⟨0, _⟩ => rfl
    | ⟨1, _⟩ => rfl)

/-- Column 1 is the second. -/
theorem columns_right {α : Type} (a b : S1000000x1.Idx → α) (h : Shape.Concatenates [S1000000x1, S1000000x1] S1000000x2 1)
    (n : Fin 1000000) :
    concatenate S1000000x2 1 [⟨S1000000x1, a⟩, ⟨S1000000x1, b⟩] h (ix2 n (1 : Fin 2)) = b (ix2 n (0 : Fin 1)) :=
  concatenate_pair_apply_right (1 : Fin S1000000x2.rank) a b h (ix2 n (1 : Fin 2)) rfl rfl (ix2 n (0 : Fin 1)) (fun d hd => by
    match d, hd with
    | ⟨0, _⟩, _ => rfl
    | ⟨1, _⟩, hd => exact absurd rfl hd) rfl

/-! ## The indices the generated lemmas read at, by coordinates -/

/-- Row `n`, column `k` of the two-column matrix is what the product reads on the left. -/
theorem lidx_eq (n : Fin 1000000) (u : Fin 1) (k : Fin 2) : lidx_main_v17 (ix2 n u) k = ix2 n k :=
  funext fun a => Fin.ext (by
    match a with
    | ⟨0, _⟩ => rfl
    | ⟨1, _⟩ => rfl)

/-- On the right it reads the transposed weights at `(k, 0)`, that is the weights at `(0, k)`. -/
theorem ridx_eq (n : Fin 1000000) (u : Fin 1) (k : Fin 2) :
    idx_main_v16 (ridx_main_v17 (ix2 n u) k) = ix2 (0 : Fin 1) k :=
  funext fun a => Fin.ext (by
    match a with
    | ⟨0, _⟩ => have := u.isLt; show u.val = 0; omega
    | ⟨1, _⟩ => rfl)

/-- The bias laid along every row is read at its one entry. -/
theorem bidx_eq (i : S1000000x1.Idx) : idx_main_v18 (idx_main_v19 i) = ix1 (0 : Fin 1) :=
  funext fun a => Fin.ext (by
    match a with
    | ⟨0, _⟩ => rfl)

/-- The neighbour sums stood up as a column are read at the row. -/
theorem nidx_eq (n : Fin 1000000) (u : Fin 1) : idx_main_v14 (ix2 n u) = ix1 n :=
  funext fun a => Fin.ext (by
    match a with
    | ⟨0, _⟩ => rfl)

/-! ## The reference's result is the linear layer of the states and the neighbour sums -/

/-- Entry `(n, 0)` of the reference's result: the two-term sum of the matrix product, written out, plus the bias. -/
theorem result_eq (x0 : (⟨S1000000x1, .f32⟩ : BufTy).Contents (Elt Ideal))
    (x1 x2 : (⟨S32000000, .i32⟩ : BufTy).Contents (Elt Ideal))
    (x3 : (⟨S1x2, .f32⟩ : BufTy).Contents (Elt Ideal)) (x4 : (⟨S1, .f32⟩ : BufTy).Contents (Elt Ideal)) :
    val_main_v20 (F := Ideal) x0 x1 x2 x3 x4
      = Cert.Combine.combine x0 (val_main_v13 (F := Ideal) x0 x1 x2) x3 x4 := by
  funext i
  obtain ⟨n, u, rfl⟩ : ∃ (n : Fin 1000000) (u : Fin 1), i = ix2 n u := ⟨i 0, i 1, eq_ix2 i⟩
  rw [val_main_v20_apply, val_main_v17_apply, val_main_v19_apply, val_main_v18_apply, Fin.sum_univ_two,
    val_main_v16_apply, val_main_v16_apply, lidx_eq, lidx_eq, ridx_eq, ridx_eq, bidx_eq]
  unfold val_main_v15
  rw [columns_left, columns_right, val_main_v14_apply, nidx_eq, Cert.Combine.combine_apply]
  rfl

end Cert.ReferenceIdeal.RefValue

end
-- ==== Proof.BodyValue.lean ====
/-
  One tile of the kernel's body at an index.

  The body holds a 1024 x 128 tile of states `x`, the matching tile of neighbour sums `s`, the whole 1 x 2 weight
  matrix `W` and the one-entry bias `b`.  It reads the two weights and the bias out as scalars, spreads each over
  the tile and stores `x * W 0 0 + s * W 0 1 + b 0`, entry by entry.
-/
import proofs.«128164_j10204842295505_1_alg».proof.Proof.Gen.KernelIdeal.Skeleton
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The scalar taken out of the 1 x 1 corner cut at column 0 of the weights is the weight `(0, 0)`. -/
theorem weight0 {α : Type} (v : S1x2.Idx → α) (h : S1x2.Slices ![0, 0] S1x1)
    (h' : ∀ a, (![0, 0] : Fin 2 → Nat) a < S1x1.size a) :
    extractAt ![0, 0] (extractStridedSlice S1x1 ![0, 0] v h) h' = v (ix2 (0 : Fin 1) (0 : Fin 2)) := by
  unfold extractAt
  exact extractStridedSlice_apply _ v h _ _ (fun a => by
    match a with
    | ⟨0, _⟩ => rfl
    | ⟨1, _⟩ => rfl)

/-- The scalar taken out of the 1 x 1 corner cut at column 1 is the weight `(0, 1)`. -/
theorem weight1 {α : Type} (v : S1x2.Idx → α) (h : S1x2.Slices ![0, 1] S1x1)
    (h' : ∀ a, (![0, 0] : Fin 2 → Nat) a < S1x1.size a) :
    extractAt ![0, 0] (extractStridedSlice S1x1 ![0, 1] v h) h' = v (ix2 (0 : Fin 1) (1 : Fin 2)) := by
  unfold extractAt
  exact extractStridedSlice_apply _ v h _ _ (fun a => by
    match a with
    | ⟨0, _⟩ => rfl
    | ⟨1, _⟩ => rfl)

/-- The scalar taken out of the one-entry bias is that entry. -/
theorem bias0 {α : Type} (v : S1.Idx → α) (h : ∀ a, (![0] : Fin 1 → Nat) a < S1.size a) :
    extractAt ![0] v h = v (ix1 (0 : Fin 1)) := by
  unfold extractAt
  exact congrArg v (funext fun a => Fin.ext (by
    match a with
    | ⟨0, _⟩ => rfl))

/-- What the body stores at entry `(p, q)` of its tile. -/
theorem payload_apply (v0 : Vec Ideal S1x2 .f32) (v5 : Vec Ideal S1 .f32) (v7 v11 : Vec Ideal S1024x128 .f32)
    (p : Fin 1024) (q : Fin 128) :
    k0_pay1 (F := Ideal) v0 v5 v7 v11 (ix2 p q)
      = v7 (ix2 p q) * v0 (ix2 (0 : Fin 1) (0 : Fin 2)) + v11 (ix2 p q) * v0 (ix2 (0 : Fin 1) (1 : Fin 2))
        + v5 (ix1 (0 : Fin 1)) := by
  unfold k0_pay1
  simp only [addf_apply, mulf_apply, broadcast_apply, shapeCast_self, weight0, weight1, bias0]

end Cert.KernelIdeal.Body

end
-- ==== Proof.Tiles.lean ====
/-
  The kernel's output array after the grid has run.

  The grid has eight points.  Point `t` is handed rows `1024 t … 1024 t + 1023` of the padded states and of the padded
  neighbour sums (two 8192 x 128 arrays), the whole weight matrix and the whole bias, and writes the same rows of the
  8192 x 128 output.  Since the body works entry by entry, what point `t` writes is rows `1024 t …` of ONE function
  of the four arrays: entry `(r, l)` is `A (r, l) * W 0 0 + B (r, l) * W 0 1 + b 0`.  The eight row bands cover the
  output (row `r` is in band `r / 1024`), so the output array ends holding that function everywhere.
-/
import proofs.«128164_j10204842295505_1_alg».proof.Proof.Gen.KernelIdeal.Frame
import proofs.«128164_j10204842295505_1_alg».proof.Proof.BodyValue
import Idealize.ShloMosaic.Lib.Pipeline.Value
import Idealize.ShloMosaic.Lib.ValueIdx
import Idealize.ShloMosaic.PureOps.Ideal

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The output array as one function of the two padded arrays, the weights and the bias, entry by entry. -/
def tileValue (A B : FVec Ideal S8192x128 .f32) (W : FVec Ideal S1x2 .f32) (b : FVec Ideal S1 .f32) :
    FVec Ideal S8192x128 .f32 :=
  fun i => A i * W (ix2 (0 : Fin 1) (0 : Fin 2)) + B i * W (ix2 (0 : Fin 1) (1 : Fin 2)) + b (ix1 (0 : Fin 1))

/-- One entry of the linear layer: `x * w0 + s * w1 + b` on the extended reals. -/
def affine (x w0 s w1 b : EReal) : EReal := x * w0 + s * w1 + b

theorem zero_offsets2 : (![0, 0] : Fin 2 → Nat) = fun _ => 0 := funext fun a => by fin_cases a <;> rfl
theorem zero_offsets1 : (![0] : Fin 1 → Nat) = fun _ => 0 := funext fun a => by fin_cases a <;> rfl

/-- The body's stored tile, entry by entry, for any index of the tile. -/
theorem payload_at (v0 : Vec Ideal S1x2 .f32) (v5 : Vec Ideal S1 .f32) (v7 v11 : Vec Ideal S1024x128 .f32)
    (j : S1024x128.Idx) :
    k0_pay1 (F := Ideal) v0 v5 v7 v11 j
      = v7 j * v0 (ix2 (0 : Fin 1) (0 : Fin 2)) + v11 j * v0 (ix2 (0 : Fin 1) (1 : Fin 2)) + v5 (ix1 (0 : Fin 1)) := by
  obtain ⟨p, q, rfl⟩ : ∃ (p : Fin 1024) (q : Fin 128), j = ix2 p q := ⟨j 0, j 1, eq_ix2 j⟩
  exact Cert.KernelIdeal.Body.payload_apply v0 v5 v7 v11 p q

/-- The printed index maps, decided over the eight points: the two tiled inputs move with the output, whose row band
    is the point's number; the weights and the bias stay at their one block. -/
theorem index_facts : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = 0 ∧ win0_2.index t (1 : Fin 2) = 0
    ∧ win0_3.index t (0 : Fin 1) = 0
    ∧ win0_4.index t (0 : Fin 2) ≤ 7 ∧ win0_4.index t (1 : Fin 2) = 0 :=
  (by decide +kernel : ∀ t : Fin grid0.N, _)

/-- Every row band is some point's. -/
theorem band_onto : ∀ q0 : Fin 8, ∃ t : Fin cfg0.N, win0_4.index t = ![q0.val, 0] :=
  (by decide +kernel : ∀ q0 : Fin 8, ∃ t : Fin grid0.N, win0_4.index t = ![q0.val, 0])

/-- What point `t` writes back is its row band of `tileValue` of the four arrays as the grid finds them. -/
theorem flushed_eq (c : Dev nD) (t : Fin cfg0.N) :
    (dats m 0 c).flushed 4 t = ((cfg0.win 4).blk t).view.read (Elt Ideal)
      (tileValue (V m c main_v17) (V m c main_v18) (V m c main_arg3) (V m c main_arg4)) := by
  show (cfg0.win 4).cut (grid0.coords t) ((dats m 0 c).after 4 t) = _
  rw [after0_4]
  unfold out0_4
  rw [View.canon_unit_zero zero_offsets2]
  simp only [View.ld_unit_zero (S := S1024x128) zero_offsets2, View.ld_unit_zero (S := S1x2) zero_offsets2,
    View.ld_unit_zero (S := S1) zero_offsets1]
  obtain ⟨e0, e1, e2, e3, e4, e5, e6, e7, e8⟩ := index_facts t
  funext j
  refine (payload_at (iblk m c 2 t) (iblk m c 3 t) (iblk m c 0 t) (iblk m c 1 t) j).trans ?_
  show affine (V m c main_v17 (((cfg0.win 0).blk t).view.emb j))
        (V m c main_arg3 (((cfg0.win 2).blk t).view.emb (ix2 (0 : Fin 1) (0 : Fin 2))))
        (V m c main_v18 (((cfg0.win 1).blk t).view.emb j))
        (V m c main_arg3 (((cfg0.win 2).blk t).view.emb (ix2 (0 : Fin 1) (1 : Fin 2))))
        (V m c main_arg4 (((cfg0.win 3).blk t).view.emb (ix1 (0 : Fin 1))))
    = affine (V m c main_v17 (((cfg0.win 4).blk t).view.emb j)) (V m c main_arg3 (ix2 (0 : Fin 1) (0 : Fin 2)))
        (V m c main_v18 (((cfg0.win 4).blk t).view.emb j)) (V m c main_arg3 (ix2 (0 : Fin 1) (1 : Fin 2)))
        (V m c main_arg4 (ix1 (0 : Fin 1)))
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 128 + 1 * (j 1).val = win0_4.index t (1 : Fin 2) * 128 + 1 * (j 1).val; omega
  have h20 : ((cfg0.win 2).blk t).view.emb (ix2 (0 : Fin 1) (0 : Fin 2)) = ix2 (0 : Fin 1) (0 : Fin 2) := by
    funext a; apply Fin.ext
    match a with
    | ⟨0, _⟩ => show win0_2.index t (0 : Fin 2) * 1 + 1 * 0 = 0; omega
    | ⟨1, _⟩ => show win0_2.index t (1 : Fin 2) * 2 + 1 * 0 = 0; omega
  have h21 : ((cfg0.win 2).blk t).view.emb (ix2 (0 : Fin 1) (1 : Fin 2)) = ix2 (0 : Fin 1) (1 : Fin 2) := by
    funext a; apply Fin.ext
    match a with
    | ⟨0, _⟩ => show win0_2.index t (0 : Fin 2) * 1 + 1 * 0 = 0; omega
    | ⟨1, _⟩ => show win0_2.index t (1 : Fin 2) * 2 + 1 * 1 = 1; omega
  have h3 : ((cfg0.win 3).blk t).view.emb (ix1 (0 : Fin 1)) = ix1 (0 : Fin 1) := by
    funext a; apply Fin.ext
    match a with
    | ⟨0, _⟩ => show win0_3.index t (0 : Fin 1) * 1 + 1 * 0 = 0; omega
  rw [h0, h1, h20, h21, h3]

/-- An index of the output array is in point `t`'s band iff each coordinate is in the band's range on its axis. -/
theorem mem_band (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v19).slice (win0_4.rect t)).set ↔ _
  rw [View.set_slice_whole, Rect.mem_set_unit]
  exact Iff.rfl

/-- Every index of the output array is in the band of the point numbered by its row divided by 1024. -/
theorem covered (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ := band_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_band]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- The output array after the grid: `tileValue` of the four arrays as the grid finds them. -/
theorem final (c : Dev nD) :
    (dats m 0 c).arrAt 4 cfg0.N
      = tileValue (V m c main_v17) (V m c main_v18) (V m c main_arg3) (V m c main_arg4) :=
  (dats m 0 c).arrAt_eq_of_cover 4 _ (fun t _ => flushed_eq m c t) covered

end Cert.KernelIdeal.Tiles

end
-- ==== Proof.Padded.lean ====
/-
  The two tiled input arrays of the grid, as functions of the vectors they are made from.

  Before the grid runs, the host lays each of two length-1000000 vectors — the states, read off their one column, and
  the neighbour sums — out as an 8192 x 128 array: the vector is extended with 48576 copies of a padding value to length
  1048576 = 8192 * 128 and cut into rows of 128.  Entry `(r, l)` of the array is therefore entry `128 r + l` of the
  vector whenever that number is below 1000000 (the only entries the result keeps; the padding is never read).

  The neighbour sums themselves — for every node the sum of the states of the sources of the edges that point at it —
  are one function of the states and the two edge lists, `neighbourSums`; it is named here and never opened.
-/
import proofs.«128164_j10204842295505_1_alg».proof.Proof.Gen.KernelIdeal
import Idealize.ShloMosaic.Lib.Pipeline.Value
import Idealize.ShloMosaic.Lib.KernelVsHost
import Idealize.ShloMosaic.Lib.ValueIdx
import Idealize.ShloMosaic.PureOps.Ideal

noncomputable section

namespace Cert.KernelIdeal.Padded

open Cert.KernelIdeal Cert.KernelIdeal.Gen Idealize.ShloMosaic Idealize.ShloMosaic.ValueIdx

/-- The edges' sources as gather indices: a negative source counted from the end (1000000 added), paired with the
    column number 0. -/
def sourceIndex (x1 : (⟨S32000000, .i32⟩ : BufTy).Contents (Elt Ideal)) : (⟨S32000000x2, .i32⟩ : BufTy).Contents (Elt Ideal) :=
  concatenate S32000000x2 1
    [⟨S32000000x1, broadcastInDim S32000000x1 ![0] bcast_S32000000_S32000000x1_0
        (select (cmpi .slt x1 (broadcastInDim S32000000 ![] bcast_S_S32000000 (constantI S_ 32 0#32)))
          (addi x1 (broadcastInDim S32000000 ![] bcast_S_S32000000 (constantI S_ 32 1000000#32))) x1)⟩,
     ⟨S32000000x1, broadcastInDim S32000000x1 ![0] bcast_S32000000_S32000000x1_0
        (id (broadcastInDim S32000000 ![] bcast_S_S32000000 (constantI S_ 32 0#32)))⟩]
    concatenates_S32000000x1_S32000000x1_S32000000x2_d1

/-- The states gathered at given indices and added up at the edges' targets, starting from zero. -/
def sumsAt (x0 : (⟨S1000000x1, .f32⟩ : BufTy).Contents (Elt Ideal)) (ix : (⟨S32000000x2, .i32⟩ : BufTy).Contents (Elt Ideal))
    (x2 : (⟨S32000000, .i32⟩ : BufTy).Contents (Elt Ideal)) : (⟨S1000000, .f32⟩ : BufTy).Contents (Elt Ideal) :=
  Host.scatterAdd scatter_S1000000_S32000000x1_S32000000_n_0_0_1
    (broadcastInDim S1000000 ![] bcast_S_S1000000 (constant (F := Ideal) S_ .f32 0x00000000#32))
    (broadcastInDim S32000000x1 ![0] bcast_S32000000_S32000000x1_0 x2)
    (Host.gather gather_S1000000x1_S32000000x2_S32000000_n_01_n_n_01_1_11 x0 ix)

/-- For every node, the sum of the states of the sources of the edges pointing at it. -/
def neighbourSums (x0 : (⟨S1000000x1, .f32⟩ : BufTy).Contents (Elt Ideal))
    (x1 x2 : (⟨S32000000, .i32⟩ : BufTy).Contents (Elt Ideal)) : (⟨S1000000, .f32⟩ : BufTy).Contents (Elt Ideal) :=
  sumsAt x0 (sourceIndex x1) x2

/-- A length-1000000 vector extended to 1048576 entries with the integer `z` read as a float, and cut into 8192 rows
    of 128. -/
def paddedWith (z : (⟨S_, .i32⟩ : BufTy).Contents (Elt Ideal)) (v : (⟨S1000000, .f32⟩ : BufTy).Contents (Elt Ideal)) :
    (⟨S8192x128, .f32⟩ : BufTy).Contents (Elt Ideal) :=
  shapeCast S8192x128
    (pad S1048576 ![0] ![48576] ![0] v (sitofp (F := Ideal) .f32 z) pads_S1000000_S1048576_0485760 h_S_)
    shapeCasts_S1048576_S8192x128

/-- The same with the padding value zero. -/
def padded (v : (⟨S1000000, .f32⟩ : BufTy).Contents (Elt Ideal)) : (⟨S8192x128, .f32⟩ : BufTy).Contents (Elt Ideal) :=
  paddedWith (constantI S_ 32 0#32) v

/-- Entry `(r, l)` of the padded array is entry `128 r + l` of the vector when that is one of its 1000000 entries. -/
theorem padded_apply (v : (⟨S1000000, .f32⟩ : BufTy).Contents (Elt Ideal)) (r : Fin 8192) (l : Fin 128) (n : Fin 1000000)
    (hn : n.val = r.val * 128 + l.val) : padded v (ix2 r l) = v (ix1 n) := by
  unfold padded paddedWith
  have hr := r.isLt
  have hl := l.isLt
  have hn' := n.isLt
  refine (shapeCast_apply _ shapeCasts_S1048576_S8192x128 (ix2 r l) (ix1 (⟨n.val, by omega⟩ : Fin 1048576)) ?_).trans ?_
  · rw [Shape.rowMajor_val_one, Shape.rowMajor_val_two]
    show n.val = r.val * 128 + l.val
    exact hn
  · exact pad_apply_of_inside _ _ _ v _ pads_S1000000_S1048576_0485760 h_S_ _ (ix1 n) (fun a => by
      match a with
      | ⟨0, _⟩ => show n.val = 0 + n.val * (0 + 1); omega)

end Cert.KernelIdeal.Padded

end
-- ==== Proof.HostPrefix.lean ====
/-
  The host lines before the grid, read stretch by stretch.

  The lines before the grid come in five stretches.  The first computes, from the arguments, the neighbour sums and the
  states read off their column; the other four pad the two vectors and cut them into rows.  Each stretch is read from
  ANY buffer contents `W` it may start from, so that no step looks further back than its own stretch; the contents after
  all five are those of the later four from the contents after the first.
-/
import proofs.«128164_j10204842295505_1_alg».proof.Proof.Gen.KernelIdeal.Launch
import proofs.«128164_j10204842295505_1_alg».proof.Proof.Padded
import Idealize.ShloMosaic.Lib.StableHlo.Run
import Idealize.ShloMosaic.PureOps.Ideal

set_option Elab.async false

noncomputable section

namespace Cert.KernelIdeal.HostPrefix

open Cert.KernelIdeal Cert.KernelIdeal.Gen Idealize.ShloMosaic Idealize.ShloMosaic.TcCoe Idealize.SL.Sem
open Idealize.ShloMosaic.StableHlo
open Cert.KernelIdeal.Padded

variable (W : Valuation τ sig (Elt Ideal))

/-- The four stretches that pad and re-lay the two vectors. -/
abbrev layOut : List (HloOp τ sig (Elt Ideal)) := hostOps0_1 ++ (hostOps0_2 ++ (hostOps0_3 ++ (hostOps0_4 ++ [])))

/-! ## The first stretch: the neighbour sums and the states -/

set_option maxHeartbeats 4000000 in
/-- After the first stretch the buffer of the scatter-add holds the neighbour sums of the arguments. -/
theorem first_sums :
    after (hostOps0 (F := Ideal)) W (Proc.devRef .tc main_v13)
      = neighbourSums (W (Proc.devRef .tc main_arg0)) (W (Proc.devRef .tc main_arg1)) (W (Proc.devRef .tc main_arg2)) := by
  simp only [hostOps0]
  after_results
  rfl

set_option maxHeartbeats 1000000 in
/-- And the buffer of the first reshape holds the states read off their column. -/
theorem first_states :
    after (hostOps0 (F := Ideal)) W (Proc.devRef .tc main_v14)
      = shapeCast S1000000 (W (Proc.devRef .tc main_arg0)) shapeCasts_S1000000x1_S1000000 := by
  simp only [hostOps0]
  after_results
  rfl

set_option maxHeartbeats 1000000 in
/-- The padding value of the first vector is the integer zero. -/
theorem first_zero :
    after (hostOps0 (F := Ideal)) W (Proc.devRef .tc main_c_2) = constantI S_ 32 0#32 := by
  simp only [hostOps0]
  after_results

/-! ## The other four: pad, cut into rows -/

set_option maxHeartbeats 1000000 in
/-- The first tiled array is the states' vector padded with the value the first stretch left, cut into rows. -/
theorem layOut_states :
    after layOut W (Proc.devRef .tc main_v17)
      = paddedWith (W (Proc.devRef .tc main_c_2)) (W (Proc.devRef .tc main_v14)) := by
  simp only [layOut, hostOps0_1, hostOps0_2, hostOps0_3, hostOps0_4, List.append_nil, List.cons_append, List.nil_append]
  after_results
  rfl

set_option maxHeartbeats 1000000 in
/-- The second is the neighbour sums' vector padded with zero, cut into rows. -/
theorem layOut_sums :
    after layOut W (Proc.devRef .tc main_v18) = padded (W (Proc.devRef .tc main_v13)) := by
  simp only [layOut, hostOps0_1, hostOps0_2, hostOps0_3, hostOps0_4, List.append_nil, List.cons_append, List.nil_append]
  after_results
  rfl

/-! ## All five -/

/-- The first tiled array the grid finds, from any contents the program starts from. -/
theorem found_states :
    after (hostOps0 ++ layOut) W (Proc.devRef .tc main_v17)
      = padded (shapeCast S1000000 (W (Proc.devRef .tc main_arg0)) shapeCasts_S1000000x1_S1000000) := by
  rw [after_append, layOut_states, first_states, first_zero]
  rfl

/-- The second. -/
theorem found_sums :
    after (hostOps0 ++ layOut) W (Proc.devRef .tc main_v18)
      = padded (neighbourSums (W (Proc.devRef .tc main_arg0)) (W (Proc.devRef .tc main_arg1))
          (W (Proc.devRef .tc main_arg2))) := by
  rw [after_append, layOut_sums, first_sums]

end Cert.KernelIdeal.HostPrefix

end
-- ==== Proof.KernelValue.lean ====
/-
  The kernel program's result.

  After the grid, the host reads the 8192 x 128 output as one vector of 1048576 entries, keeps the first 1000000 and
  stands them up as a column.  Entry `(n, 0)` of the result is therefore entry `(n / 128, n % 128)` of the output
  array, which the grid left at
      A (n / 128, n % 128) * W 0 0 + B (n / 128, n % 128) * W 0 1 + b 0
  with `A`, `B` the padded states and neighbour sums; and since `128 (n / 128) + n % 128 = n < 1000000`, those two
  entries are the state and the neighbour sum of node `n`.  So the kernel program ends with
  `Cert.Combine.combine` of the states, the neighbour sums, the weights and the bias.
-/
import proofs.«128164_j10204842295505_1_alg».proof.Proof.Gen.KernelIdeal.Frame
import proofs.«128164_j10204842295505_1_alg».proof.Proof.Combine
import proofs.«128164_j10204842295505_1_alg».proof.Proof.Tiles
import proofs.«128164_j10204842295505_1_alg».proof.Proof.Padded
import proofs.«128164_j10204842295505_1_alg».proof.Proof.HostPrefix
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Cert.KernelIdeal.Tiles Cert.KernelIdeal.Padded

variable (m : (ℓ : Loc nD τ sig) → Buf (Elt Ideal) ℓ) (ρ : Dev nD → PrngReg)

/-! ## The host lines after the grid -/

/-- An 8192 x 128 array read as one vector, its first 1000000 entries kept and stood up as a column. -/
def column (o : (⟨S8192x128, .f32⟩ : BufTy).Contents (Elt Ideal)) : (⟨S1000000x1, .f32⟩ : BufTy).Contents (Elt Ideal) :=
  broadcastInDim S1000000x1 ![0] bcast_S1000000_S1000000x1_0
    (extractStridedSlice S1000000 ![0] (shapeCast S1048576 o shapeCasts_S8192x128_S1048576) slices_S1048576_S1000000_0)

/-- Entry `(n, 0)` of the column is entry `(r, l)` of the array when `n = 128 r + l`. -/
theorem column_apply (o : (⟨S8192x128, .f32⟩ : BufTy).Contents (Elt Ideal)) (n : Fin 1000000) (u : Fin 1)
    (r : Fin 8192) (l : Fin 128) (hn : n.val = r.val * 128 + l.val) : column o (ix2 n u) = o (ix2 r l) := by
  unfold column
  have hn' := n.isLt
  refine (broadcastInDim_apply _ bcast_S1000000_S1000000x1_0 _ (ix2 n u) (ix1 n) (fun a => by
    match a with
    | ⟨0, _⟩ => show n.val = if (1000000 : Nat) = 1 then 0 else n.val; rw [if_neg (by decide)])).trans ?_
  refine (extractStridedSlice_apply _ _ slices_S1048576_S1000000_0 (ix1 n) (ix1 (⟨n.val, by omega⟩ : Fin 1048576)) (fun a => by
    match a with
    | ⟨0, _⟩ => show n.val = 0 + n.val; omega)).trans ?_
  refine shapeCast_apply o shapeCasts_S8192x128_S1048576 (ix1 (⟨n.val, by omega⟩ : Fin 1048576)) (ix2 r l) ?_
  rw [Shape.rowMajor_val_one, Shape.rowMajor_val_two]
  show r.val * 128 + l.val = n.val
  exact hn.symm

/-- The result buffer after the host lines that follow the grid: the column of the grid's output array. -/
theorem tail_result (c : Dev nD) :
    Pipeline.afterTail₀ cfgs (dats m) 0 (V0 m) [hostOps1] c main_v22
      = column (Pipeline.withArrays (cfgs 0).spec c (V0 m c) (fun w => (dats m 0 c).arrAt w (cfgs 0).N)
          (Proc.devRef .tc main_v19)) := by
  unfold Pipeline.afterTail₀
  show StableHlo.after hostOps1 _ (Proc.devRef .tc main_v22) = _
  after_results <;> rfl

/-! ## What the grid finds in its two tiled arrays -/

/-- The first tiled array holds the states, read off their column, padded and cut into rows. -/
theorem found_states (c : Dev nD) :
    (V m c main_v17 : S8192x128.Idx → EReal)
      = padded (shapeCast S1000000 (m ((c : Thread nD τ).loc main_arg0)) shapeCasts_S1000000x1_S1000000) := by
  dsimp only [Gen.V, Gen.V0]
  simp only [List.flatten_cons, List.flatten_nil]
  exact Cert.KernelIdeal.HostPrefix.found_states (fun b => m (c, b))

/-- The second holds the neighbour sums, padded and cut into rows. -/
theorem found_sums (c : Dev nD) :
    (V m c main_v18 : S8192x128.Idx → EReal)
      = padded (neighbourSums (m ((c : Thread nD τ).loc main_arg0)) (m ((c : Thread nD τ).loc main_arg1))
          (m ((c : Thread nD τ).loc main_arg2))) := by
  dsimp only [Gen.V, Gen.V0]
  simp only [List.flatten_cons, List.flatten_nil]
  exact Cert.KernelIdeal.HostPrefix.found_sums (fun b => m (c, b))

/-! ## The kernel program's result as a function of its arguments -/

/-- The states read off their one column, at node `n`. -/
theorem states_apply (x : (⟨S1000000x1, .f32⟩ : BufTy).Contents (Elt Ideal)) (n : Fin 1000000) :
    shapeCast S1000000 x shapeCasts_S1000000x1_S1000000 (ix1 n) = x (ix2 n (0 : Fin 1)) := by
  refine shapeCast_apply x shapeCasts_S1000000x1_S1000000 (ix1 n) (ix2 n (0 : Fin 1)) ?_
  rw [Shape.rowMajor_val_one, Shape.rowMajor_val_two]
  show n.val * 1 + 0 = n.val
  omega

/-- The result buffer of the kernel program is the linear layer applied to the states and the neighbour sums. -/
theorem result_eq (c : Dev nD) :
    Pipeline.afterTail₀ cfgs (dats m) 0 (V0 m) [hostOps1] c main_v22
      = Cert.Combine.combine (m ((c : Thread nD τ).loc main_arg0))
          (neighbourSums (m ((c : Thread nD τ).loc main_arg0)) (m ((c : Thread nD τ).loc main_arg1))
            (m ((c : Thread nD τ).loc main_arg2)))
          (m ((c : Thread nD τ).loc main_arg3)) (m ((c : Thread nD τ).loc main_arg4)) := by
  refine (tail_result m c).trans ?_
  refine (congrArg column ((Pipeline.withArrays_arr spec0 launch0.win.arr_inj c _ _ 4).trans (Tiles.final m c))).trans ?_
  funext i
  obtain ⟨n, u, rfl⟩ : ∃ (n : Fin 1000000) (u : Fin 1), i = ix2 n u := ⟨i 0, i 1, eq_ix2 i⟩
  have hn := n.isLt
  have hq : n.val / 128 < 8192 := by omega
  have hl : n.val % 128 < 128 := Nat.mod_lt _ (by decide)
  have hsplit : n.val = (⟨n.val / 128, hq⟩ : Fin 8192).val * 128 + (⟨n.val % 128, hl⟩ : Fin 128).val := by
    show n.val = n.val / 128 * 128 + n.val % 128
    omega
  rw [column_apply _ n u ⟨n.val / 128, hq⟩ ⟨n.val % 128, hl⟩ hsplit, Cert.Combine.combine_apply]
  unfold tileValue
  rw [found_states, found_sums, V_main_arg3, V_main_arg4,
    padded_apply _ ⟨n.val / 128, hq⟩ ⟨n.val % 128, hl⟩ n hsplit,
    padded_apply _ ⟨n.val / 128, hq⟩ ⟨n.val % 128, hl⟩ n hsplit, states_apply]

/-! ## The run -/

/-- Every weakly fair execution of the kernel program terminates with its result at the linear layer of the states
    and the neighbour sums, and its five arguments unchanged. -/
theorem run : θ_run defs (onTc (τ := τ) (main (F := Ideal))) ⟨m, fun _ => 0, ρ⟩ fun r => ∀ c : Dev nD,
      r.2.mem ((c.tc : Thread nD τ).loc main_v22)
        = Cert.Combine.combine (m ((c : Thread nD τ).loc main_arg0))
          (neighbourSums (m ((c : Thread nD τ).loc main_arg0)) (m ((c : Thread nD τ).loc main_arg1))
            (m ((c : Thread nD τ).loc main_arg2)))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KernelValue

end
-- ==== Proof.lean ====
/-
  One layer of message passing on a graph with 1000000 nodes and 32000000 edges: every node receives the sum of the
  states of the sources of the edges pointing at it, and a linear layer with a 1 x 2 weight matrix `W` and a bias `b`
  sends (state, neighbour sum) to
      state * W 0 0  +  neighbour sum * W 0 1  +  b 0 .

  Both programs compute the neighbour sums by the same host operations (a gather along the edges' sources, a
  scatter-add at their targets); that part is one function of the arguments in both and is never opened.

  The kernel program then pads the states and the neighbour sums to 8192 * 128 entries, lays each out as an 8192 x 128
  array, lets a grid of eight points compute the linear layer entry by entry on row bands of 1024 rows, and reads the
  first 1000000 entries of the flattened output back as a column.  The reference lays the states and the neighbour sums
  side by side as a 1000000 x 2 matrix, multiplies by the transposed weights and adds the bias.  At the extended reals
  entry `(n, 0)` is, on both sides, the same three-term expression of the state of node `n`, its neighbour sum, the two
  weights and the bias: the matrix product's two-term sum written out IS the kernel's expression, so no law of
  arithmetic beyond that is used, and the precondition (finite inputs) is never opened.
-/
import proofs.«128164_j10204842295505_1_alg».proof.Defs
import proofs.«128164_j10204842295505_1_alg».proof.Proof.Gen.Kernel
import proofs.«128164_j10204842295505_1_alg».proof.Proof.Gen.Kernel.Skeleton
import proofs.«128164_j10204842295505_1_alg».proof.Proof.Gen.Kernel.Launch
import proofs.«128164_j10204842295505_1_alg».proof.Proof.Gen.Kernel.Points
import proofs.«128164_j10204842295505_1_alg».proof.Proof.Gen.Kernel.Frame
import proofs.«128164_j10204842295505_1_alg».proof.Proof.Gen.KernelIdeal
import proofs.«128164_j10204842295505_1_alg».proof.Proof.Gen.KernelIdeal.Skeleton
import proofs.«128164_j10204842295505_1_alg».proof.Proof.Gen.KernelIdeal.Launch
import proofs.«128164_j10204842295505_1_alg».proof.Proof.Gen.KernelIdeal.Points
import proofs.«128164_j10204842295505_1_alg».proof.Proof.Gen.KernelIdeal.Frame
import proofs.«128164_j10204842295505_1_alg».proof.Proof.Gen.ReferenceIdeal
import proofs.«128164_j10204842295505_1_alg».proof.Proof.Gen.ReferenceIdeal.Run
import proofs.«128164_j10204842295505_1_alg».proof.Proof.Gen.ReferenceIdeal.Read
import proofs.«128164_j10204842295505_1_alg».proof.Proof.Gen.Pre_finite_inputs
import proofs.«128164_j10204842295505_1_alg».proof.Proof.Combine
import proofs.«128164_j10204842295505_1_alg».proof.Proof.ReferenceSide
import proofs.«128164_j10204842295505_1_alg».proof.Proof.KernelValue
import Idealize.ShloMosaic.Adequacy
import Idealize.ShloMosaic.Init

noncomputable section

namespace Cert.Proof

open Idealize.ShloMosaic Idealize.SL.Sem

/-- The neighbour sums are computed by the same operations in both programs: the kernel program's term and the
    reference's are one function of the states and the two edge lists. -/
theorem sums_eq (x0 : (⟨Cert.KernelIdeal.S1000000x1, .f32⟩ : BufTy).Contents (Elt Ideal))
    (x1 x2 : (⟨Cert.KernelIdeal.S32000000, .i32⟩ : BufTy).Contents (Elt Ideal)) :
    Cert.KernelIdeal.Padded.neighbourSums x0 x1 x2 = Cert.ReferenceIdeal.Read.val_main_v13 (F := Ideal) x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the linear layer applied to the states and the neighbour sums of the (agreeing) arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans
    ((Cert.ReferenceIdeal.RefValue.result_eq _ _ _ _ _).trans (by rw [← sums_eq]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
